-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096 .f32) (main_arg4 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S512x1 : Shape := ⟨2, ![512, 1]⟩
abbrev S4096x1024 : Shape := ⟨2, ![4096, 1024]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S1x4096, .f32⟩
  | .hbm, ⟨7, _⟩ => ⟨S4096x4096, .bf16⟩
  | .hbm, ⟨8, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x1, .f32⟩
  | .local _ .vmem, ⟨5, _⟩ => ⟨S512x1, .f32⟩
  | .local _ .vmem, ⟨6, _⟩ => ⟨S1x4096, .f32⟩
  | .local _ .vmem, ⟨7, _⟩ => ⟨S512x4096, .bf16⟩
  | .local _ .vmem, ⟨8, _⟩ => ⟨S512x4096, .bf16⟩
  | .local _ .vmem, ⟨9, _⟩ => ⟨S512x4096, .f32⟩
  | .local _ .vmem, ⟨10, _⟩ => ⟨S512x4096, .f32⟩
  | .local _ .vmem, ⟨11, _⟩ => ⟨S4096x1024, .bf16⟩
  | .local _ .vmem, ⟨12, _⟩ => ⟨S4096x1024, .bf16⟩
  | .local _ .vmem, ⟨13, _⟩ => ⟨S512x1024, .f32⟩
  | .local _ .vmem, ⟨14, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  broadcasts_S1x4096_S512x4096 : S1x4096.Broadcasts S512x4096
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .bf16 = 32 ∨ (Rect.block (s := S4096x4096) S512x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .bf16 = 32 ∨ (Rect.block (s := S4096x4096) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x4096.size a
  hwx1_2 : ∀ i : grid1.Coords, EltTy.bits .f32 = 32 ∨ (Rect.block (s := S8192x4096) S512x1024.size (cc1_transform_2 i) (hinb1_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.Spec.lean ====
/-
  The function both programs compute, over the extended reals.

  With  s(k) = exp(h · u(k))  and  r(c) = exp(h · v(c)),  h the value of the float word 0x3F000000 (one half),
  the weight matrix is
      W(k, c) = Wm(k, c) + s(k) · (e(k, c) · r(c))
  and the result is the matrix product
      out(b, c) = Σ_{k < 4096} x(b, k) · W(k, c).
  One program groups the triple product as  s · (e · r),  the other as  (s · e) · r;  multiplication on the
  extended reals is associative (with 0 · ±∞ = 0 it is a commutative monoid with zero), so the two weights agree
  at every entry, infinite entries included, and no finiteness of the inputs is used.
-/
import Idealize.ShloMosaic.PureOps.Ideal
import Idealize.ShloMosaic.Lib.ValueIdx

noncomputable section

open scoped BigOperators

namespace Cert.Mvg

open Idealize.ShloMosaic Idealize.ShloMosaic.ValueIdx

/-- The batch of inputs: 8192 rows of 4096 features. -/
abbrev SX : Shape := ⟨2, ![8192, 4096]⟩
/-- A weight matrix. -/
abbrev SW : Shape := ⟨2, ![4096, 4096]⟩
/-- A scale vector. -/
abbrev SV : Shape := ⟨1, ![4096]⟩

/-- The value of the float word 0x3F000000: the factor in front of both log-scales. -/
def half : EReal := Ideal.ofBits .f32 0x3F000000#32

/-- The scale a log-scale entry denotes: exp(h · w). -/
def scale (w : EReal) : EReal := Ideal.exp (half * w)

/-- One weight entry with the triple product grouped  s · (e · r). -/
def weightInner (wm e s r : EReal) : EReal := wm + s * (e * r)

/-- One weight entry with the triple product grouped  (s · e) · r. -/
def weightOuter (wm e s r : EReal) : EReal := wm + s * e * r

/-- The two groupings are one number: multiplication of extended reals is associative. -/
theorem weightOuter_eq_inner (wm e s r : EReal) : weightOuter wm e s r = weightInner wm e s r := by
  unfold weightOuter weightInner
  rw [mul_assoc]

/-- The weight matrix at row k, column c. -/
def weightAt (Wm : SW.Idx → EReal) (Wu Wv : SV.Idx → EReal) (eps : SW.Idx → EReal) (k c : Fin 4096) : EReal :=
  weightInner (Wm (ix2 k c)) (eps (ix2 k c)) (scale (Wu (ix1 k))) (scale (Wv (ix1 c)))

/-- The result at row b, column c: row b of the inputs against column c of the weights. -/
def outAt (x : SX.Idx → EReal) (Wm : SW.Idx → EReal) (Wu Wv : SV.Idx → EReal) (eps : SW.Idx → EReal)
    (b : Fin 8192) (c : Fin 4096) : EReal :=
  ∑ k : Fin 4096, x (ix2 b k) * weightAt Wm Wu Wv eps k c

/-- The result as an array. -/
def out (x : SX.Idx → EReal) (Wm : SW.Idx → EReal) (Wu Wv : SV.Idx → EReal) (eps : SW.Idx → EReal) : SX.Idx → EReal :=
  fun i => outAt x Wm Wu Wv eps ⟨(i 0).val, (i 0).isLt⟩ ⟨(i 1).val, (i 1).isLt⟩

theorem out_ix2 (x : SX.Idx → EReal) (Wm : SW.Idx → EReal) (Wu Wv : SV.Idx → EReal) (eps : SW.Idx → EReal)
    (b : Fin 8192) (c : Fin 4096) : out x Wm Wu Wv eps (ix2 b c) = outAt x Wm Wu Wv eps b c := rfl

end Cert.Mvg

end
-- ==== Proof.BuildBody.lean ====
/-
  The weight-building kernel's stored value, entry by entry.

  The body reads a block of 512 rows of Wm and of e, the matching 512 entries of the log-scale column u (kept as a
  512×1 column) and the whole log-scale row v (a 1×4096 row). It forms s = exp(h·u) down the column and
  r = exp(h·v) along the row, spreads s over the 4096 columns and r over the 512 rows, and stores
  Wm + s·(e·r), narrowed to the 16-bit format, which over the extended reals changes nothing. So the entry at
  row i, column c of the stored block is  Wm(i,c) + exp(h·u(i,0)) · (e(i,c) · exp(h·v(0,c))).
-/
import proofs.«142714_g18253611008866_pilotgen1_445_21_alg».proof.Proof.Gen.KernelIdeal.Skeleton
import proofs.«142714_g18253611008866_pilotgen1_445_21_alg».proof.Proof.LibColumns
import proofs.«142714_g18253611008866_pilotgen1_445_21_alg».proof.Proof.Spec
import Idealize.ShloMosaic.Lib.ValueLayout
import Idealize.ShloMosaic.Lib.Pipeline.Value

noncomputable section

namespace Cert.KernelIdeal.BuildBody

open Cert.KernelIdeal Cert.KernelIdeal.Gen Idealize.ShloMosaic Idealize.ShloMosaic.ValueIdx Cert.Mvg

/-- The column of scales spread over the columns: at (i, c) it is the scale of the column's entry (i, 0). -/
theorem scale_col_apply (ucol : FVec Ideal S512x1 .f32) (i : Fin 512) (c : Fin 4096) :
    broadcastTo S512x4096
        (exp (mulf (broadcast S512x1 (Scalar.ofBits (F := Ideal) .f32 0x3F000000#32))
          (shapeCast S512x1 ucol shapeCasts_S512x1_S512x1)))
        broadcasts_S512x1_S512x4096 (ix2 i c)
      = scale (ucol (ix2 i (0 : Fin 1))) := by
  rw [Cert.Columns.broadcastTo_a1_ab_apply, shapeCast_self]
  rfl

/-- The row of scales spread over the rows: at (i, c) it is the scale of the row's entry (0, c). -/
theorem scale_row_apply (vrow : FVec Ideal S1x4096 .f32) (i : Fin 512) (c : Fin 4096) :
    broadcastTo S512x4096
        (exp (mulf (broadcast S1x4096 (Scalar.ofBits (F := Ideal) .f32 0x3F000000#32))
          (shapeCast S1x4096 vrow shapeCasts_S1x4096_S1x4096)))
        broadcasts_S1x4096_S512x4096 (ix2 i c)
      = scale (vrow (ix2 (0 : Fin 1) c)) := by
  rw [broadcastTo_1b_ab_apply, shapeCast_self]
  rfl

/-- THE STORED BLOCK AT AN ENTRY: the weight in the grouping  s · (e · r). -/
theorem pay_apply (ucol : Vec Ideal S512x1 .f32) (vrow : Vec Ideal S1x4096 .f32)
    (wm e : Vec Ideal S512x4096 .f32) (i : Fin 512) (c : Fin 4096) :
    k0_pay1 (F := Ideal) ucol vrow wm e (ix2 i c)
      = weightInner (wm (ix2 i c)) (e (ix2 i c)) (scale (ucol (ix2 i (0 : Fin 1)))) (scale (vrow (ix2 (0 : Fin 1) c))) := by
  unfold k0_pay1 weightInner
  show wm (ix2 i c) + _ * (e (ix2 i c) * _) = _
  rw [scale_col_apply, scale_row_apply]

end Cert.KernelIdeal.BuildBody

end
-- ==== Proof.BuildArray.lean ====
/-
  The weight matrix after the first kernel, as one function of the arrays the kernel finds.

  The grid has 8 points; point t works on rows 512·t … 512·t + 511. Its blocks of Wm, of e and of the result all sit
  at block row t, block column 0; its block of the log-scale column u is block row t of the 4096×1 column, and its
  block of the log-scale row v is the whole 1×4096 row. So the entry the point writes at (i, c) of its block lands
  at row 512·t + i, column c of the array, and depends on Wm and e at that same place, on u at row 512·t + i and
  on v at column c: every point writes its block of ONE function of the four arrays. The 8 blocks tile the
  4096 rows, so after the last point the array holds that function everywhere.
-/
import proofs.«142714_g18253611008866_pilotgen1_445_21_alg».proof.Proof.Gen.KernelIdeal.Frame
import proofs.«142714_g18253611008866_pilotgen1_445_21_alg».proof.Proof.BuildBody
import Idealize.ShloMosaic.Lib.Pipeline.Value

noncomputable section

namespace Cert.KernelIdeal.BuildArray

open Cert.KernelIdeal Cert.KernelIdeal.Gen Idealize.ShloMosaic Idealize.ShloMosaic.TcCoe Idealize.SL.Sem
open Idealize.ShloMosaic.ValueIdx Cert.Mvg
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The weight matrix from the matrices Wm and e, the log-scale column and the log-scale row: at (k, c),
    Wm(k,c) + exp(h·u(k,0)) · (e(k,c) · exp(h·v(0,c))). -/
def weights (Wm eps : S4096x4096.Idx → EReal) (ucol : S4096x1.Idx → EReal) (vrow : S1x4096.Idx → EReal) :
    S4096x4096.Idx → EReal :=
  fun i => weightInner (Wm i) (eps i)
    (scale (ucol (ix2 (⟨(i 0).val, (i 0).isLt⟩ : Fin 4096) (0 : Fin 1))))
    (scale (vrow (ix2 (0 : Fin 1) (⟨(i 1).val, (i 1).isLt⟩ : Fin 4096))))

/-- Where each window's block sits at a point, decided over the 8 points: the two matrices and the column move with
    the result's block row; every block column is 0; the row never moves. -/
theorem index_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 7 :=
  (by decide +kernel : ∀ t : Fin grid0.N, _)

/-- Every block row of the result is some point's. -/
theorem index_onto : ∀ q0 : Fin 8, ∃ t : Fin cfg0.N, win0_4.index t = ![q0.val, 0] :=
  (by decide +kernel : ∀ q0 : Fin 8, ∃ t : Fin grid0.N, win0_4.index t = ![q0.val, 0])

/-- WHAT POINT t WRITES BACK is block t of the weight matrix of the arrays as the region finds them. -/
theorem flushed_eq (c : Dev nD) (t : Fin cfg0.N) :
    (dat0 V c).flushed 4 t = ((cfg0.win 4).blk t).view.read (Elt Ideal)
      (weights (V c main_arg1) (V c main_arg4) (V c main_call0_v0) (V c main_call0_v1)) := by
  show (cfg0.win 4).cut (grid0.coords t) ((dat0 V c).after 4 t) = _
  rw [after0_4]
  unfold out0_4
  rw [View.canon_unit_zero zeros2]
  simp only [View.ld_unit_zero (S := S512x4096) zeros2, View.ld_unit_zero (S := S512x1) zeros2,
    View.ld_unit_zero (S := S1x4096) zeros2]
  obtain ⟨e00, e01, e10, e11, e20, e21, e30, e31, e41, -⟩ := index_facts t
  funext j
  obtain ⟨i, q, rfl⟩ : ∃ (i : Fin 512) (q : Fin 4096), j = ix2 i q := ⟨j 0, j 1, eq_ix2 j⟩
  refine (BuildBody.pay_apply (iblk0 V c 2 t) (iblk0 V c 3 t) (iblk0 V c 0 t) (iblk0 V c 1 t) i q).trans ?_
  have h0 : ((cfg0.win 0).blk t).view.emb (ix2 i q) = ((cfg0.win 4).blk t).view.emb (ix2 i q) := by
    funext a; apply Fin.ext
    match a with
    | ⟨0, _⟩ => show win0_0.index t (0 : Fin 2) * 512 + 1 * i.val = win0_4.index t (0 : Fin 2) * 512 + 1 * i.val; omega
    | ⟨1, _⟩ => show win0_0.index t (1 : Fin 2) * 4096 + 1 * q.val = win0_4.index t (1 : Fin 2) * 4096 + 1 * q.val; omega
  have h1 : ((cfg0.win 1).blk t).view.emb (ix2 i q) = ((cfg0.win 4).blk t).view.emb (ix2 i q) := by
    funext a; apply Fin.ext
    match a with
    | ⟨0, _⟩ => show win0_1.index t (0 : Fin 2) * 512 + 1 * i.val = win0_4.index t (0 : Fin 2) * 512 + 1 * i.val; omega
    | ⟨1, _⟩ => show win0_1.index t (1 : Fin 2) * 4096 + 1 * q.val = win0_4.index t (1 : Fin 2) * 4096 + 1 * q.val; omega
  have h2 : ((cfg0.win 2).blk t).view.emb (ix2 i (0 : Fin 1))
      = ix2 (⟨(((cfg0.win 4).blk t).view.emb (ix2 i q) 0).val, (((cfg0.win 4).blk t).view.emb (ix2 i q) 0).isLt⟩ : Fin 4096) (0 : Fin 1) := by
    funext a; apply Fin.ext
    match a with
    | ⟨0, _⟩ => show win0_2.index t (0 : Fin 2) * 512 + 1 * i.val = win0_4.index t (0 : Fin 2) * 512 + 1 * i.val; omega
    | ⟨1, _⟩ => show win0_2.index t (1 : Fin 2) * 1 + 1 * 0 = 0; omega
  have h3 : ((cfg0.win 3).blk t).view.emb (ix2 (0 : Fin 1) q)
      = ix2 (0 : Fin 1) (⟨(((cfg0.win 4).blk t).view.emb (ix2 i q) 1).val, (((cfg0.win 4).blk t).view.emb (ix2 i q) 1).isLt⟩ : Fin 4096) := by
    funext a; apply Fin.ext
    match a with
    | ⟨0, _⟩ => show win0_3.index t (0 : Fin 2) * 1 + 1 * 0 = 0; omega
    | ⟨1, _⟩ => show win0_3.index t (1 : Fin 2) * 4096 + 1 * q.val = win0_4.index t (1 : Fin 2) * 4096 + 1 * q.val; omega
  show weightInner (V c main_arg1 (((cfg0.win 0).blk t).view.emb (ix2 i q))) (V c main_arg4 (((cfg0.win 1).blk t).view.emb (ix2 i q)))
      (scale (V c main_call0_v0 (((cfg0.win 2).blk t).view.emb (ix2 i (0 : Fin 1)))))
      (scale (V c main_call0_v1 (((cfg0.win 3).blk t).view.emb (ix2 (0 : Fin 1) q))))
    = weights (V c main_arg1) (V c main_arg4) (V c main_call0_v0) (V c main_call0_v1) (((cfg0.win 4).blk t).view.emb (ix2 i q))
  rw [h0, h1, h2, h3]
  rfl

/-- An index of the array is in point t's block iff each coordinate is in the block's range on its axis. -/
theorem mem_blk (t : Fin cfg0.N) (i : S4096x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_call0_v2).slice (win0_4.rect t)).set ↔ _
  rw [View.set_slice_whole, Rect.mem_set_unit]
  exact Iff.rfl

/-- THE BLOCKS COVER THE ARRAY: row r lies in the block of the point at block row r / 512. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := index_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- THE ARRAY after the region: the weight matrix of the arrays as the region finds them. -/
theorem final (c : Dev nD) :
    (dat0 V c).arrAt 4 cfg0.N = weights (V c main_arg1) (V c main_arg4) (V c main_call0_v0) (V c main_call0_v1) :=
  (dat0 V c).arrAt_eq_of_cover 4 _ (fun t _ => flushed_eq V c t) cover

end Cert.KernelIdeal.BuildArray

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.GemmBody.lean ====
/-
  The product kernel's stored value, entry by entry.

  The body reads a block of 512 rows of the inputs (all 4096 features) and a block of 1024 columns of the weights
  (all 4096 rows), and stores their matrix product accumulated into the zero matrix. Over the extended reals the
  entry at row p, column q of the stored block is  Σ_{k < 4096} x(p, k) · w(k, q):  the weights are held in a
  16-bit format and the inputs in a 32-bit one, which over the extended reals makes no difference.
-/
import proofs.«142714_g18253611008866_pilotgen1_445_21_alg».proof.Proof.Gen.KernelIdeal.Skeleton
import proofs.«142714_g18253611008866_pilotgen1_445_21_alg».proof.Proof.LibMatmulPlain
import Idealize.ShloMosaic.Lib.Pipeline.Value

noncomputable section

open scoped BigOperators

namespace Cert.KernelIdeal.GemmBody

open Cert.KernelIdeal Cert.KernelIdeal.Gen Idealize.ShloMosaic Idealize.ShloMosaic.ValueIdx

/-- THE STORED BLOCK AT AN ENTRY: the row of the input block against the column of the weight block. -/
theorem pay_apply (xb : Vec Ideal S512x4096 .f32) (wb : Vec Ideal S4096x1024 .bf16) (p : Fin 512) (q : Fin 1024) :
    k1_pay1 (F := Ideal) xb wb (ix2 p q) = ∑ k : Fin 4096, xb (ix2 p k) * wb (ix2 k q) := by
  unfold k1_pay1
  show FloatOps.matmul dot_S512x4096_S4096x1024_S512x1024_1_0_0_1_n_n none xb
      (shapeCast S4096x1024 wb shapeCasts_S4096x1024_S4096x1024) (constant (F := Ideal) S512x1024 .f32 0x00000000#32) (ix2 p q) = _
  rw [shapeCast_self]
  exact Cert.LibMatmulPlain.matmul_plain_zero_apply (M := 512) (K := 4096) (N := 1024)
    dot_S512x4096_S4096x1024_S512x1024_1_0_0_1_n_n rfl none xb wb p q

end Cert.KernelIdeal.GemmBody

end
-- ==== Proof.GemmArray.lean ====
/-
  The result after the second kernel, as one function of the arrays the kernel finds.

  The grid has 16 × 4 points; the point at (a, b) works on rows 512·a … 512·a + 511 of the inputs and columns
  1024·b … 1024·b + 1023 of the weights: its block of the inputs is block row a with all 4096 features, its block
  of the weights is block column b with all 4096 rows, and its block of the result is at (a, b). The entry it
  writes at (p, q) of its block lands at row 512·a + p, column 1024·b + q of the array and is the sum over k of
  inputs(512·a + p, k) · weights(k, 1024·b + q): every point writes its block of ONE function of the two arrays —
  the whole matrix product. The 64 blocks tile the 8192 × 4096 result.
-/
import proofs.«142714_g18253611008866_pilotgen1_445_21_alg».proof.Proof.Gen.KernelIdeal.Frame
import proofs.«142714_g18253611008866_pilotgen1_445_21_alg».proof.Proof.GemmBody
import Idealize.ShloMosaic.Lib.Pipeline.Value

noncomputable section

open scoped BigOperators

namespace Cert.KernelIdeal.GemmArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The product of an 8192 × 4096 matrix with a 4096 × 4096 one, entry by entry. -/
def product (X : S8192x4096.Idx → EReal) (W : S4096x4096.Idx → EReal) : S8192x4096.Idx → EReal :=
  fun i => ∑ k : Fin 4096, X (ix2 (⟨(i 0).val, (i 0).isLt⟩ : Fin 8192) k) * W (ix2 k (⟨(i 1).val, (i 1).isLt⟩ : Fin 4096))

/-- Where each window's block sits at a point, decided over the 64 points: the inputs move with the result's
    block row, the weights with its block column, and both take their contracted axis whole. -/
theorem index_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) ≤ 15 ∧ win1_2.index t (1 : Fin 2) ≤ 3 :=
  (by decide +kernel : ∀ t : Fin grid1.N, _)

/-- Every block of the result is some point's. -/
theorem index_onto : ∀ (q0 : Fin 16) (q1 : Fin 4), ∃ t : Fin cfg1.N, win1_2.index t = ![q0.val, q1.val] :=
  (by decide +kernel : ∀ (q0 : Fin 16) (q1 : Fin 4), ∃ t : Fin grid1.N, win1_2.index t = ![q0.val, q1.val])

/-- WHAT POINT t WRITES BACK is block t of the product of the arrays as the region finds them. -/
theorem flushed_eq (c : Dev nD) (t : Fin cfg1.N) :
    (dat1 V c).flushed 2 t = ((cfg1.win 2).blk t).view.read (Elt Ideal)
      (product (V c main_arg0) (V c main_call0_v2)) := by
  show (cfg1.win 2).cut (grid1.coords t) ((dat1 V c).after 2 t) = _
  rw [after1_2]
  unfold out1_2
  rw [View.canon_unit_zero zeros2]
  simp only [View.ld_unit_zero (S := S512x4096) zeros2, View.ld_unit_zero (S := S4096x1024) zeros2]
  obtain ⟨e00, e01, e10, e11, -, -⟩ := index_facts t
  funext j
  obtain ⟨p, q, rfl⟩ : ∃ (p : Fin 512) (q : Fin 1024), j = ix2 p q := ⟨j 0, j 1, eq_ix2 j⟩
  refine (GemmBody.pay_apply (iblk1 V c 0 t) (iblk1 V c 1 t) p q).trans ?_
  show _ = product (V c main_arg0) (V c main_call0_v2) (((cfg1.win 2).blk t).view.emb (ix2 p q))
  unfold product
  refine Finset.sum_congr rfl fun k _ => ?_
  have h0 : ((cfg1.win 0).blk t).view.emb (ix2 p k)
      = ix2 (⟨(((cfg1.win 2).blk t).view.emb (ix2 p q) 0).val, (((cfg1.win 2).blk t).view.emb (ix2 p q) 0).isLt⟩ : Fin 8192) k := by
    funext a; apply Fin.ext
    match a with
    | ⟨0, _⟩ => show win1_0.index t (0 : Fin 2) * 512 + 1 * p.val = win1_2.index t (0 : Fin 2) * 512 + 1 * p.val; omega
    | ⟨1, _⟩ => show win1_0.index t (1 : Fin 2) * 4096 + 1 * k.val = k.val; omega
  have h1 : ((cfg1.win 1).blk t).view.emb (ix2 k q)
      = ix2 k (⟨(((cfg1.win 2).blk t).view.emb (ix2 p q) 1).val, (((cfg1.win 2).blk t).view.emb (ix2 p q) 1).isLt⟩ : Fin 4096) := by
    funext a; apply Fin.ext
    match a with
    | ⟨0, _⟩ => show win1_1.index t (0 : Fin 2) * 4096 + 1 * k.val = k.val; omega
    | ⟨1, _⟩ => show win1_1.index t (1 : Fin 2) * 1024 + 1 * q.val = win1_2.index t (1 : Fin 2) * 1024 + 1 * q.val; omega
  have hx : iblk1 V c 0 t (ix2 p k)
      = V c main_arg0 (ix2 (⟨(((cfg1.win 2).blk t).view.emb (ix2 p q) 0).val, (((cfg1.win 2).blk t).view.emb (ix2 p q) 0).isLt⟩ : Fin 8192) k) := by
    show V c main_arg0 (((cfg1.win 0).blk t).view.emb (ix2 p k)) = _
    rw [h0]
  have hw : iblk1 V c 1 t (ix2 k q)
      = V c main_call0_v2 (ix2 k (⟨(((cfg1.win 2).blk t).view.emb (ix2 p q) 1).val, (((cfg1.win 2).blk t).view.emb (ix2 p q) 1).isLt⟩ : Fin 4096)) := by
    show V c main_call0_v2 (((cfg1.win 1).blk t).view.emb (ix2 k q)) = _
    rw [h1]
  rw [hx, hw]

/-- An index of the array is in point t's block iff each coordinate is in the block's range on its axis. -/
theorem mem_blk (t : Fin cfg1.N) (i : S8192x4096.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v0).slice (win1_2.rect t)).set ↔ _
  rw [View.set_slice_whole, Rect.mem_set_unit]
  exact Iff.rfl

/-- THE BLOCKS COVER THE ARRAY: (r, s) lies in the block of the point at (r / 512, s / 1024). -/
theorem cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := index_onto ⟨(i 0).val / 512, by omega⟩ ⟨(i 1).val / 1024, by omega⟩
  have q0 : win1_2.index t (0 : Fin 2) = (i 0).val / 512 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- THE ARRAY after the region: the product of the inputs and the weights as the region finds them. -/
theorem final (c : Dev nD) :
    (dat1 V c).arrAt 2 cfg1.N = product (V c main_arg0) (V c main_call0_v2) :=
  (dat1 V c).arrAt_eq_of_cover 2 _ (fun t _ => flushed_eq V c t) cover

end Cert.KernelIdeal.GemmArray

end
-- ==== Proof.KernelRun.lean ====
/-
  The whole kernel program read as one function of its arguments.

  The program is two host reshapes (the log-scale vector u as a 4096×1 column, the log-scale vector v as a 1×4096
  row), then the kernel that builds the weight matrix from Wm, e, the column and the row, then the kernel that
  multiplies the inputs by that matrix. Its run is three segments; every buffer that lives across them ends at
  the contents the last segment leaves. Reading the result buffer back through the segments: it is what the second
  kernel's write-backs leave, the product of the inputs (untouched since launch) with what the first kernel's
  write-backs left, the weight matrix of Wm and e (untouched since launch) and of the reshaped vectors. A reshape
  moves no data: the column at (k, 0) is u at k and the row at (0, c) is v at c. So the result is the specified
  function of the five arguments.
-/
import proofs.«142714_g18253611008866_pilotgen1_445_21_alg».proof.Proof.Gen.KernelIdeal.Frame
import proofs.«142714_g18253611008866_pilotgen1_445_21_alg».proof.Proof.BuildArray
import proofs.«142714_g18253611008866_pilotgen1_445_21_alg».proof.Proof.GemmArray
import Idealize.ShloMosaic.Lib.ValueLayout
import Idealize.ShloMosaic.Lib.StableHlo.Run

set_option maxRecDepth 16384

noncomputable section

open scoped BigOperators

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Mvg

local notation "𝕄" => MT nD τ sig Unit (Elt Ideal) ℕ (UR sig nD τ) ℕ

variable (m : (ℓ : Loc nD τ sig) → Buf (Elt Ideal) ℓ) (ρ : Dev nD → PrngReg)

/-! ## The run: every buffer that lives across the segments ends at the last boundary's contents -/

set_option backward.isDefEq.respectTransparency.types false in
/-- From any memory with zero counters every weakly fair execution of the program terminates, nothing faulting, and
    every unscoped buffer of every core ends at what the last segment leaves in it. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What the kernels find: the arguments as launched, the two log-scale vectors re-laid -/

/-- Wm at the first kernel's entry is the launch contents: no host operation writes it. -/
theorem entry_Wm (c : Dev nD) : V1 m ρ c main_arg1 = m ((c : Thread nD τ).loc main_arg1) := by
  show StableHlo.after hostOps0 (W0 m ρ c) (Proc.devRef .tc main_arg1) = _
  dsimp only [hostOps0]
  after_results

/-- e at the first kernel's entry is the launch contents. -/
theorem entry_eps (c : Dev nD) : V1 m ρ c main_arg4 = m ((c : Thread nD τ).loc main_arg4) := by
  show StableHlo.after hostOps0 (W0 m ρ c) (Proc.devRef .tc main_arg4) = _
  dsimp only [hostOps0]
  after_results

/-- The inputs at the first kernel's entry are the launch contents. -/
theorem entry_x (c : Dev nD) : V1 m ρ c main_arg0 = m ((c : Thread nD τ).loc main_arg0) := by
  show StableHlo.after hostOps0 (W0 m ρ c) (Proc.devRef .tc main_arg0) = _
  dsimp only [hostOps0]
  after_results

/-- The log-scale column is the vector u laid out as 4096×1. -/
theorem entry_col (c : Dev nD) : (V1 m ρ c main_call0_v0 : S4096x1.Idx → EReal)
    = shapeCast S4096x1 (m ((c : Thread nD τ).loc main_arg2)) shapeCasts_S4096_S4096x1 := by
  show StableHlo.after hostOps0 (W0 m ρ c) (Proc.devRef .tc main_call0_v0) = _
  dsimp only [hostOps0]
  after_results
  rfl

/-- The log-scale row is the vector v laid out as 1×4096. -/
theorem entry_row (c : Dev nD) : (V1 m ρ c main_call0_v1 : S1x4096.Idx → EReal)
    = shapeCast S1x4096 (m ((c : Thread nD τ).loc main_arg3)) shapeCasts_S4096_S1x4096 := by
  show StableHlo.after hostOps0 (W0 m ρ c) (Proc.devRef .tc main_call0_v1) = _
  dsimp only [hostOps0]
  after_results
  rfl

/-! ## The two kernels composed -/

/-- The product of the inputs with the weight matrix built from the re-laid vectors is the specified result: at
    (k, c) the weight reads the column at (k, 0), which is u at k, and the row at (0, c), which is v at c. -/
theorem product_weights (X : S8192x4096.Idx → EReal) (Wm eps : S4096x4096.Idx → EReal) (u v : S4096.Idx → EReal) :
    GemmArray.product X (BuildArray.weights Wm eps (shapeCast S4096x1 u shapeCasts_S4096_S4096x1)
        (shapeCast S1x4096 v shapeCasts_S4096_S1x4096))
      = out X Wm u v eps := by
  funext i
  obtain ⟨b, q, rfl⟩ : ∃ (b : Fin 8192) (q : Fin 4096), i = ix2 b q := ⟨i 0, i 1, eq_ix2 i⟩
  rw [out_ix2]
  unfold GemmArray.product outAt
  refine Finset.sum_congr rfl fun k _ => ?_
  show X (ix2 b k) * BuildArray.weights Wm eps (shapeCast S4096x1 u shapeCasts_S4096_S4096x1)
      (shapeCast S1x4096 v shapeCasts_S4096_S1x4096) (ix2 k q) = X (ix2 b k) * weightAt Wm u v eps k q
  refine congrArg (X (ix2 b k) * ·) ?_
  unfold BuildArray.weights weightAt
  show weightInner (Wm (ix2 k q)) (eps (ix2 k q))
      (scale (shapeCast S4096x1 u shapeCasts_S4096_S4096x1 (ix2 k (0 : Fin 1))))
      (scale (shapeCast S1x4096 v shapeCasts_S4096_S1x4096 (ix2 (0 : Fin 1) q))) = _
  rw [Cert.Columns.shapeCast_a_a1_apply, shapeCast_a_1a_apply]

/-- THE RESULT BUFFER at the last boundary is the specified function of the launch contents. -/
theorem result (c : Dev nD) : (W3 m ρ c (Proc.devRef .tc main_v0) : S8192x4096.Idx → EReal)
    = out (m ((c : Thread nD τ).loc main_arg0)) (m ((c : Thread nD τ).loc main_arg1))
        (m ((c : Thread nD τ).loc main_arg2)) (m ((c : Thread nD τ).loc main_arg3)) (m ((c : Thread nD τ).loc main_arg4)) := by
  have hout : W3 m ρ c (Proc.devRef .tc main_v0) = (dat1 (V2 m ρ) c).arrAt 2 cfg1.N := W3_arr m ρ c 2
  have hx : V2 m ρ c main_arg0 = m ((c : Thread nD τ).loc main_arg0) :=
    (W2_of_ne m ρ c main_arg0 (by decide)).trans (entry_x m ρ c)
  have hw : V2 m ρ c main_call0_v2 = (dat0 (V1 m ρ) c).arrAt 4 cfg0.N := W2_arr m ρ c 4
  rw [hout, GemmArray.final (V2 m ρ) c, hx, hw, BuildArray.final (V1 m ρ) c, entry_Wm, entry_eps, entry_col, entry_row]
  exact product_weights _ _ _ _ _

/-! ## The run, read -/

/-- Every weakly fair execution of the program terminates, nothing faulting, with the result buffer at the specified
    function of the arguments and the arguments as launched. -/
theorem run : θ_run defs (onTc (τ := τ) (main (F := Ideal))) ⟨m, fun _ => 0, ρ⟩ (fun r => ∀ c : Dev nD,
      r.2.mem ((c.tc : Thread nD τ).loc main_v0)
        = out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v0 (by decide))).trans (result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)
    (run_all m ρ)

end Cert.KernelIdeal.Whole

end
-- ==== Proof.RefValue.lean ====
/-
  The reference computes the specified function.

  Its weight stage at (k, c) is  Wm(k,c) + ((exp(h·u(k)) · e(k,c)) · exp(h·v(c))):  the column of scales is the
  vector placed along axis 0 and spread over the columns, the row of scales the vector placed along axis 1 and
  spread over the rows, so at (k, c) they read the vectors at k and at c. That is the weight with the triple
  product grouped (s · e) · r, which is the weight grouped s · (e · r). Its last operation contracts the inputs'
  columns with the weights' rows: at (b, c) the sum over k of x(b,k) · W(k,c).
-/
import proofs.«142714_g18253611008866_pilotgen1_445_21_alg».proof.Proof.Gen.ReferenceIdeal.Read
import proofs.«142714_g18253611008866_pilotgen1_445_21_alg».proof.Proof.Spec

noncomputable section

open scoped BigOperators

namespace Cert.ReferenceIdeal.RefValue

open Cert.ReferenceIdeal Cert.ReferenceIdeal.Read Idealize.ShloMosaic Idealize.ShloMosaic.ValueIdx Cert.Mvg

/-- The reference's weight stage at (k, c) is the specified weight. -/
theorem weight_stage (x1 : S4096x4096.Idx → EReal) (x2 x3 : S4096.Idx → EReal) (x4 : S4096x4096.Idx → EReal)
    (k c : Fin 4096) :
    val_main_v12 (F := Ideal) x1 x2 x3 x4 (ix2 k c) = weightAt x1 x2 x3 x4 k c := by
  have eu : idx_main_v3 (idx_main_v4 (ix2 k c : S4096x4096.Idx)) = ix1 k :=
    funext fun a => Fin.ext (by match a with | ⟨0, _⟩ => rfl)
  have ev : idx_main_v9 (idx_main_v10 (ix2 k c : S4096x4096.Idx)) = ix1 c :=
    funext fun a => Fin.ext (by match a with | ⟨0, _⟩ => rfl)
  rw [val_main_v12_apply, val_main_v11_apply, val_main_v5_apply, val_main_v4_apply, val_main_v3_apply,
    val_main_v2_apply, val_main_v1_apply, val_main_v0_apply, val_main_cst_apply,
    val_main_v10_apply, val_main_v9_apply, val_main_v8_apply, val_main_v7_apply, val_main_v6_apply,
    val_main_cst_0_apply, eu, ev]
  exact weightOuter_eq_inner (x1 (ix2 k c)) (x4 (ix2 k c)) (scale (x2 (ix1 k))) (scale (x3 (ix1 c)))

/-- THE REFERENCE'S RESULT is the specified function of its arguments. -/
theorem result_eq (x0 : S8192x4096.Idx → EReal) (x1 : S4096x4096.Idx → EReal) (x2 x3 : S4096.Idx → EReal)
    (x4 : S4096x4096.Idx → EReal) :
    val_main_v13 (F := Ideal) x0 x1 x2 x3 x4 = out x0 x1 x2 x3 x4 := by
  funext i
  obtain ⟨b, c, rfl⟩ : ∃ (b : Fin 8192) (c : Fin 4096), i = ix2 b c := ⟨i 0, i 1, eq_ix2 i⟩
  rw [val_main_v13_apply, out_ix2]
  unfold outAt
  refine Finset.sum_congr rfl fun k _ => ?_
  have el : lidx_main_v13 (ix2 b c : S8192x4096.Idx) k = ix2 b k :=
    funext fun a => Fin.ext (by match a with | ⟨0, _⟩ => rfl | ⟨1, _⟩ => rfl)
  have er : ridx_main_v13 (ix2 b c : S8192x4096.Idx) k = ix2 k c :=
    funext fun a => Fin.ext (by match a with | ⟨0, _⟩ => rfl | ⟨1, _⟩ => rfl)
  rw [el, er, weight_stage]

end Cert.ReferenceIdeal.RefValue

end
-- ==== Proof.lean ====
/-
  Equivalence over the extended reals of a two-kernel matrix-variate layer against its reference.

  Both programs compute, from inputs x (8192×4096), a mean matrix Wm and a noise matrix e (4096×4096) and two
  log-scale vectors u, v (4096),
      out(b, c) = Σ_k x(b,k) · ( Wm(k,c) + exp(u(k)/2) · e(k,c) · exp(v(c)/2) ).
  The kernel program first builds the weight matrix block by block (512 rows at a time), grouping the triple
  product as exp(u/2) · (e · exp(v/2)), keeps it in a 16-bit format, and then multiplies, each grid point
  contracting all 4096 features at once for a 512×1024 block of the result. The reference builds the weights with
  the product grouped (exp(u/2) · e) · exp(v/2) and multiplies once. Over the extended reals a change of float
  format is the identity, both exponentials are the one function, a product accumulated into zero is the plain
  sum, and multiplication is associative — so the two results agree entry by entry, whatever the inputs; the
  precondition is not used.

  The frames of the three programs and the reference's run are generated modules; the idealized kernel program is
  the word-level program's own text read over the extended reals, so the idealization claim is the trivial one.
  The argument is in the modules beside this one: the value of each kernel's stored block (BuildBody, GemmBody),
  each kernel's output array as one function of the arrays it finds (BuildArray, GemmArray), the whole kernel
  program's result (KernelRun), the reference's result (RefValue), over the specification in Spec.
-/
import proofs.«142714_g18253611008866_pilotgen1_445_21_alg».proof.Defs
import proofs.«142714_g18253611008866_pilotgen1_445_21_alg».proof.Proof.Gen.Kernel
import proofs.«142714_g18253611008866_pilotgen1_445_21_alg».proof.Proof.Gen.Kernel.Frame
import proofs.«142714_g18253611008866_pilotgen1_445_21_alg».proof.Proof.Gen.KernelIdeal
import proofs.«142714_g18253611008866_pilotgen1_445_21_alg».proof.Proof.Gen.KernelIdeal.Frame
import proofs.«142714_g18253611008866_pilotgen1_445_21_alg».proof.Proof.Gen.ReferenceIdeal
import proofs.«142714_g18253611008866_pilotgen1_445_21_alg».proof.Proof.Gen.Pre_finite_inputs
import proofs.«142714_g18253611008866_pilotgen1_445_21_alg».proof.Proof.Gen.ReferenceIdeal.Run
import proofs.«142714_g18253611008866_pilotgen1_445_21_alg».proof.Proof.Gen.ReferenceIdeal.Read
import proofs.«142714_g18253611008866_pilotgen1_445_21_alg».proof.Proof.KernelRun
import proofs.«142714_g18253611008866_pilotgen1_445_21_alg».proof.Proof.RefValue

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program is the word-level program's own text: no operation was rewritten, and the claim
    about the rewrites is the trivial one. -/
theorem preserves : Cert.preserves_Kernel_KernelIdeal := trivial

/-- From memories agreeing on the five arguments both programs end with the result buffer at the specified
    function of the arguments: the kernel program by its run read back through the two kernels, the reference
    by its generated run, whose term is the specification by the associativity of the triple product. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
